-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v14)) (v2 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_v28) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2400000 : Shape := ⟨1, ![2400000]⟩
abbrev S100000x64 : Shape := ⟨2, ![100000, 64]⟩
abbrev S50000x64 : Shape := ⟨2, ![50000, 64]⟩
abbrev S64x64 : Shape := ⟨2, ![64, 64]⟩
abbrev S_ : Shape := ⟨0, ![]⟩

class Facts : Prop where
  bcast_S_S2400000 : S_.BroadcastsInDim S2400000 (![] : Fin 0 → Fin S2400000.rank)
  reducesTo_S2400000_S_d0 : S2400000.ReducesTo [0] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S50000x64 : S_.BroadcastsInDim S50000x64 (![] : Fin 0 → Fin S50000x64.rank)
  reducesTo_S50000x64_S_d0_1 : S50000x64.ReducesTo [0, 1] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg6 : FVec F S64x64 .f32) (main_arg7 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  main_v28

def fn {F : FTy → Type} [FloatOps F] (main_arg0 : IVec S2400000 32) (main_arg1 : IVec S2400000 32) (main_arg2 : FVec F S2400000 .f32) (main_arg3 : FVec F S100000x64 .f32) (main_arg4 : FVec F S50000x64 .f32) (main_arg5 : FVec F S64x64 .f32) (main_arg6 : FVec F S64x64 .f32) (main_arg7 : FVec F S64x64 .f32) : IVec S_ 1 :=
  let main_v0 : FVec F S2400000 .f32 := Host.absf main_arg2
  let main_cst : FVec F S_ .f32 := constant S_ .f32 0x7F800000#32
  let main_v1 : FVec F S2400000 .f32 := broadcastInDim S2400000 ![] bcast_S_S2400000 main_cst
  let main_v2 : IVec S2400000 1 := cmpf .olt main_v0 main_v1
  let main_c : IVec S_ 1 := constantI S_ 1 1#1
  let main_v3 : IVec S_ 1 := (fun x v => Host.reduce IntOp.andi x v reducesTo_S2400000_S_d0 h_S_) main_v2 main_c
  let main_v4 : FVec F S100000x64 .f32 := Host.absf main_arg3
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S50000x64 .f32 := Host.absf main_arg4
  let main_cst_2 : FVec F S_ .f32 := constant S_ .f32 0x7F800000#32
  let main_v10 : FVec F S50000x64 .f32 := broadcastInDim S50000x64 ![] bcast_S_S50000x64 main_cst_2
  let main_v11 : IVec S50000x64 1 := cmpf .olt main_v9 main_v10
  let main_c_3 : IVec S_ 1 := constantI S_ 1 1#1
  let main_v12 : IVec S_ 1 := (fun x v => Host.reduce IntOp.andi x v reducesTo_S50000x64_S_d0_1 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_v13 main_v16
-- ==== Kernel.lean ====
abbrev S2400000 : Shape := ⟨1, ![2400000]⟩
abbrev S100000x64 : Shape := ⟨2, ![100000, 64]⟩
abbrev S50000x64 : Shape := ⟨2, ![50000, 64]⟩
abbrev S64x64 : Shape := ⟨2, ![64, 64]⟩
abbrev S150000x64 : Shape := ⟨2, ![150000, 64]⟩
abbrev S2400000x1 : Shape := ⟨2, ![2400000, 1]⟩
abbrev S_ : Shape := ⟨0, ![]⟩
abbrev S2400000x64 : Shape := ⟨2, ![2400000, 64]⟩
abbrev S3000x64 : Shape := ⟨2, ![3000, 64]⟩

abbrev nBuf : Space → Nat
  | .hbm => 43
  | .vmem => 14
  | .smem => 0
  | _ => 0

abbrev bufTy : (tb : Table) → Fin (tcTables nBuf tb) → BufTy
  | .hbm, ⟨0, _⟩ => ⟨S2400000, .i32⟩
  | .hbm, ⟨1, _⟩ => ⟨S2400000, .i32⟩
  | .hbm, ⟨2, _⟩ => ⟨S2400000, .f32⟩
  | .hbm, ⟨3, _⟩ => ⟨S100000x64, .f32⟩
  | .hbm, ⟨4, _⟩ => ⟨S50000x64, .f32⟩
  | .hbm, ⟨5, _⟩ => ⟨S64x64, .f32⟩
  | .hbm, ⟨6, _⟩ => ⟨S64x64, .f32⟩
  | .hbm, ⟨7, _⟩ => ⟨S64x64, .f32⟩
  | .hbm, ⟨8, _⟩ => ⟨S150000x64, .f32⟩
  | .hbm, ⟨9, _⟩ => ⟨S2400000x1, .f32⟩
  | .hbm, ⟨10, _⟩ => ⟨S_, .i32⟩
  | .hbm, ⟨11, _⟩ => ⟨S2400000, .i32⟩
  | .hbm, ⟨12, _⟩ => ⟨S2400000, .i1⟩
  | .hbm, ⟨13, _⟩ => ⟨S_, .i32⟩
  | .hbm, ⟨14, _⟩ => ⟨S2400000, .i32⟩
  | .hbm, ⟨15, _⟩ => ⟨S2400000, .i32⟩
  | .hbm, ⟨16, _⟩ => ⟨S2400000, .i32⟩
  | .hbm, ⟨17, _⟩ => ⟨S2400000x1, .i32⟩
  | .hbm, ⟨18, _⟩ => ⟨S2400000x64, .f32⟩
  | .hbm, ⟨19, _⟩ => ⟨S2400000x64, .f32⟩
  | .hbm, ⟨20, _⟩ => ⟨S2400000x64, .f32⟩
  | .hbm, ⟨21, _⟩ => ⟨S_, .f32⟩
  | .hbm, ⟨22, _⟩ => ⟨S150000x64, .f32⟩
  | .hbm, ⟨23, _⟩ => ⟨S2400000x1, .i32⟩
  | .hbm, ⟨24, _⟩ => ⟨S150000x64, .f32⟩
  | .hbm, ⟨25, _⟩ => ⟨S150000x64, .f32⟩
  | .hbm, ⟨26, _⟩ => ⟨S2400000x1, .f32⟩
  | .hbm, ⟨27, _⟩ => ⟨S_, .i32⟩
  | .hbm, ⟨28, _⟩ => ⟨S2400000, .i32⟩
  | .hbm, ⟨29, _⟩ => ⟨S2400000, .i1⟩
  | .hbm, ⟨30, _⟩ => ⟨S_, .i32⟩
  | .hbm, ⟨31, _⟩ => ⟨S2400000, .i32⟩
  | .hbm, ⟨32, _⟩ => ⟨S2400000, .i32⟩
  | .hbm, ⟨33, _⟩ => ⟨S2400000, .i32⟩
  | .hbm, ⟨34, _⟩ => ⟨S2400000x1, .i32⟩
  | .hbm, ⟨35, _⟩ => ⟨S2400000x64, .f32⟩
  | .hbm, ⟨36, _⟩ => ⟨S2400000x64, .f32⟩
  | .hbm, ⟨37, _⟩ => ⟨S2400000x64, .f32⟩
  | .hbm, ⟨38, _⟩ => ⟨S_, .f32⟩
  | .hbm, ⟨39, _⟩ => ⟨S150000x64, .f32⟩
  | .hbm, ⟨40, _⟩ => ⟨S2400000x1, .i32⟩
  | .hbm, ⟨41, _⟩ => ⟨S150000x64, .f32⟩
  | .hbm, ⟨42, _⟩ => ⟨S150000x64, .f32⟩
  | .local _ .vmem, ⟨0, _⟩ => ⟨S3000x64, .f32⟩
  | .local _ .vmem, ⟨1, _⟩ => ⟨S3000x64, .f32⟩
  | .local _ .vmem, ⟨2, _⟩ => ⟨S64x64, .f32⟩
  | .local _ .vmem, ⟨3, _⟩ => ⟨S64x64, .f32⟩
  | .local _ .vmem, ⟨4, _⟩ => ⟨S64x64, .f32⟩
  | .local _ .vmem, ⟨5, _⟩ => ⟨S3000x64, .f32⟩
  | .local _ .vmem, ⟨6, _⟩ => ⟨S3000x64, .f32⟩
  | .local _ .vmem, ⟨7, _⟩ => ⟨S3000x64, .f32⟩
  | .local _ .vmem, ⟨8, _⟩ => ⟨S3000x64, .f32⟩
  | .local _ .vmem, ⟨9, _⟩ => ⟨S64x64, .f32⟩
  | .local _ .vmem, ⟨10, _⟩ => ⟨S64x64, .f32⟩
  | .local _ .vmem, ⟨11, _⟩ => ⟨S64x64, .f32⟩
  | .local _ .vmem, ⟨12, _⟩ => ⟨S3000x64, .f32⟩
  | .local _ .vmem, ⟨13, _⟩ => ⟨S3000x64, .f32⟩
  | _, _ => ⟨S2400000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S3000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S3000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  concatenates_S100000x64_S50000x64_S150000x64_d0 : Shape.Concatenates [S100000x64, S50000x64] S150000x64 0
  bcast_S2400000_S2400000x1_0 : S2400000.BroadcastsInDim S2400000x1 (![0] : Fin 1 → Fin S2400000x1.rank)
  bcast_S_S2400000 : S_.BroadcastsInDim S2400000 (![] : Fin 0 → Fin S2400000.rank)
  bcast_S2400000x1_S2400000x64_0_1 : S2400000x1.BroadcastsInDim S2400000x64 (![0, 1] : Fin 2 → Fin S2400000x64.rank)
  bcast_S_S150000x64 : S_.BroadcastsInDim S150000x64 (![] : Fin 0 → Fin S150000x64.rank)
  inb_S3000x64_S3000x64_0_0 : ∀ a, (![0, 0] : Fin 2 → Nat) a + S3000x64.size a ≤ S3000x64.size a
  h_S3000x64 : 0 < S3000x64.numel
  shapeCasts_S3000x64_S3000x64 : S3000x64.ShapeCasts S3000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  gather_S150000x64_S2400000x1_S2400000x64_1_0_n_n_0_1_164_wf : GatherDims.WF S150000x64 S2400000x1 S2400000x64 [1] [0] [] [0] [] 1 ![1, 64]
  scatter_S150000x64_S2400000x1_S2400000x64_1_0_0_1_wf : ScatterDims.WF S150000x64 S2400000x1 S2400000x64 [1] [0] [0] 1
  dot_S3000x64_S64x64_S3000x64_1_0_0_1_n_n_wf : DotDims.WF S3000x64 S64x64 S3000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x64.size a ≤ S150000x64.size a
  hwx0_0 : ∀ i : grid0.Coords, EltTy.bits .f32 = 32 ∨ (Rect.block (s := S150000x64) S3000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S3000x64.size a ≤ S150000x64.size a
  hwx0_4 : ∀ i : grid0.Coords, EltTy.bits .f32 = 32 ∨ (Rect.block (s := S150000x64) S3000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3000x64.size a ≤ S150000x64.size a
  hwx1_0 : ∀ i : grid1.Coords, EltTy.bits .f32 = 32 ∨ (Rect.block (s := S150000x64) S3000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S3000x64.size a ≤ S150000x64.size a
  hwx1_4 : ∀ i : grid1.Coords, EltTy.bits .f32 = 32 ∨ (Rect.block (s := S150000x64) S3000x64.size (cc1_transform_4 i) (hinb1_4 i)).WholeWords (EltTy.packing .f32)

variable [Facts₀]

def gather_S150000x64_S2400000x1_S2400000x64_1_0_n_n_0_1_164 : GatherDims S150000x64 S2400000x1 S2400000x64 where
  offsetDims := [1]
  collapsedSliceDims := [0]
  operandBatchingDims := []
  startIndicesBatchingDims := []
  startIndexMap := [0]
  indexVectorDim := 1
  sliceSizes := ![1, 64]
  wf := gather_S150000x64_S2400000x1_S2400000x64_1_0_n_n_0_1_164_wf
def scatter_S150000x64_S2400000x1_S2400000x64_1_0_0_1 : ScatterDims S150000x64 S2400000x1 S2400000x64 where
  updateWindowDims := [1]
  insertedWindowDims := [0]
  scatterDimsToOperandDims := [0]
  indexVectorDim := 1
  wf := scatter_S150000x64_S2400000x1_S2400000x64_1_0_0_1_wf
def dot_S3000x64_S64x64_S3000x64_1_0_0_1_n_n : DotDims S3000x64 S64x64 S3000x64 where
  lhsContracting := [1]
  rhsContracting := [0]
  lhsNonContracting := [0]
  rhsNonContracting := [1]
  lhsBatch := []
  rhsBatch := []
  wf := dot_S3000x64_S64x64_S3000x64_1_0_0_1_n_n_wf

abbrev win0_0 : Pipeline.Window sig grid0 :=
  Pipeline.Window.ofSpec (Memref.whole main_v13) S3000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S3000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v27) S3000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S3000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S2400000 : Shape := ⟨1, ![2400000]⟩
abbrev S100000x64 : Shape := ⟨2, ![100000, 64]⟩
abbrev S50000x64 : Shape := ⟨2, ![50000, 64]⟩
abbrev S64x64 : Shape := ⟨2, ![64, 64]⟩
abbrev S150000x64 : Shape := ⟨2, ![150000, 64]⟩
abbrev S2400000x1 : Shape := ⟨2, ![2400000, 1]⟩
abbrev S_ : Shape := ⟨0, ![]⟩
abbrev S2400000x64 : Shape := ⟨2, ![2400000, 64]⟩

abbrev nBuf : Space → Nat
  | .hbm => 81
  | .vmem => 0
  | .smem => 0
  | _ => 0

abbrev bufTy : (tb : Table) → Fin (tcTables nBuf tb) → BufTy
  | .hbm, ⟨0, _⟩ => ⟨S2400000, .i32⟩
  | .hbm, ⟨1, _⟩ => ⟨S2400000, .i32⟩
  | .hbm, ⟨2, _⟩ => ⟨S2400000, .f32⟩
  | .hbm, ⟨3, _⟩ => ⟨S100000x64, .f32⟩
  | .hbm, ⟨4, _⟩ => ⟨S50000x64, .f32⟩
  | .hbm, ⟨5, _⟩ => ⟨S64x64, .f32⟩
  | .hbm, ⟨6, _⟩ => ⟨S64x64, .f32⟩
  | .hbm, ⟨7, _⟩ => ⟨S64x64, .f32⟩
  | .hbm, ⟨8, _⟩ => ⟨S150000x64, .f32⟩
  | .hbm, ⟨9, _⟩ => ⟨S2400000x1, .f32⟩
  | .hbm, ⟨10, _⟩ => ⟨S_, .i32⟩
  | .hbm, ⟨11, _⟩ => ⟨S2400000, .i32⟩
  | .hbm, ⟨12, _⟩ => ⟨S2400000, .i1⟩
  | .hbm, ⟨13, _⟩ => ⟨S_, .i32⟩
  | .hbm, ⟨14, _⟩ => ⟨S2400000, .i32⟩
  | .hbm, ⟨15, _⟩ => ⟨S2400000, .i32⟩
  | .hbm, ⟨16, _⟩ => ⟨S2400000, .i32⟩
  | .hbm, ⟨17, _⟩ => ⟨S2400000x1, .i32⟩
  | .hbm, ⟨18, _⟩ => ⟨S2400000x64, .f32⟩
  | .hbm, ⟨19, _⟩ => ⟨S2400000x64, .f32⟩
  | .hbm, ⟨20, _⟩ => ⟨S2400000x64, .f32⟩
  | .hbm, ⟨21, _⟩ => ⟨S_, .f32⟩
  | .hbm, ⟨22, _⟩ => ⟨S150000x64, .f32⟩
  | .hbm, ⟨23, _⟩ => ⟨S2400000x1, .i32⟩
  | .hbm, ⟨24, _⟩ => ⟨S150000x64, .f32⟩
  | .hbm, ⟨25, _⟩ => ⟨S_, .f32⟩
  | .hbm, ⟨26, _⟩ => ⟨S150000x64, .f32⟩
  | .hbm, ⟨27, _⟩ => ⟨S150000x64, .i1⟩
  | .hbm, ⟨28, _⟩ => ⟨S_, .f32⟩
  | .hbm, ⟨29, _⟩ => ⟨S150000x64, .f32⟩
  | .hbm, ⟨30, _⟩ => ⟨S150000x64, .f32⟩
  | .hbm, ⟨31, _⟩ => ⟨S150000x64, .f32⟩
  | .hbm, ⟨32, _⟩ => ⟨S64x64, .f32⟩
  | .hbm, ⟨33, _⟩ => ⟨S150000x64, .f32⟩
  | .hbm, ⟨34, _⟩ => ⟨S64x64, .f32⟩
  | .hbm, ⟨35, _⟩ => ⟨S150000x64, .f32⟩
  | .hbm, ⟨36, _⟩ => ⟨S_, .f32⟩
  | .hbm, ⟨37, _⟩ => ⟨S150000x64, .f32⟩
  | .hbm, ⟨38, _⟩ => ⟨S150000x64, .i1⟩
  | .hbm, ⟨39, _⟩ => ⟨S_, .f32⟩
  | .hbm, ⟨40, _⟩ => ⟨S150000x64, .f32⟩
  | .hbm, ⟨41, _⟩ => ⟨S150000x64, .f32⟩
  | .hbm, ⟨42, _⟩ => ⟨S150000x64, .f32⟩
  | .hbm, ⟨43, _⟩ => ⟨S64x64, .f32⟩
  | .hbm, ⟨44, _⟩ => ⟨S150000x64, .f32⟩
  | .hbm, ⟨45, _⟩ => ⟨S2400000x1, .f32⟩
  | .hbm, ⟨46, _⟩ => ⟨S_, .i32⟩
  | .hbm, ⟨47, _⟩ => ⟨S2400000, .i32⟩
  | .hbm, ⟨48, _⟩ => ⟨S2400000, .i1⟩
  | .hbm, ⟨49, _⟩ => ⟨S_, .i32⟩
  | .hbm, ⟨50, _⟩ => ⟨S2400000, .i32⟩
  | .hbm, ⟨51, _⟩ => ⟨S2400000, .i32⟩
  | .hbm, ⟨52, _⟩ => ⟨S2400000, .i32⟩
  | .hbm, ⟨53, _⟩ => ⟨S2400000x1, .i32⟩
  | .hbm, ⟨54, _⟩ => ⟨S2400000x64, .f32⟩
  | .hbm, ⟨55, _⟩ => ⟨S2400000x64, .f32⟩
  | .hbm, ⟨56, _⟩ => ⟨S2400000x64, .f32⟩
  | .hbm, ⟨57, _⟩ => ⟨S_, .f32⟩
  | .hbm, ⟨58, _⟩ => ⟨S150000x64, .f32⟩
  | .hbm, ⟨59, _⟩ => ⟨S2400000x1, .i32⟩
  | .hbm, ⟨60, _⟩ => ⟨S150000x64, .f32⟩
  | .hbm, ⟨61, _⟩ => ⟨S_, .f32⟩
  | .hbm, ⟨62, _⟩ => ⟨S150000x64, .f32⟩
  | .hbm, ⟨63, _⟩ => ⟨S150000x64, .i1⟩
  | .hbm, ⟨64, _⟩ => ⟨S_, .f32⟩
  | .hbm, ⟨65, _⟩ => ⟨S150000x64, .f32⟩
  | .hbm, ⟨66, _⟩ => ⟨S150000x64, .f32⟩
  | .hbm, ⟨67, _⟩ => ⟨S150000x64, .f32⟩
  | .hbm, ⟨68, _⟩ => ⟨S64x64, .f32⟩
  | .hbm, ⟨69, _⟩ => ⟨S150000x64, .f32⟩
  | .hbm, ⟨70, _⟩ => ⟨S64x64, .f32⟩
  | .hbm, ⟨71, _⟩ => ⟨S150000x64, .f32⟩
  | .hbm, ⟨72, _⟩ => ⟨S_, .f32⟩
  | .hbm, ⟨73, _⟩ => ⟨S150000x64, .f32⟩
  | .hbm, ⟨74, _⟩ => ⟨S150000x64, .i1⟩
  | .hbm, ⟨75, _⟩ => ⟨S_, .f32⟩
  | .hbm, ⟨76, _⟩ => ⟨S150000x64, .f32⟩
  | .hbm, ⟨77, _⟩ => ⟨S150000x64, .f32⟩
  | .hbm, ⟨78, _⟩ => ⟨S150000x64, .f32⟩
  | .hbm, ⟨79, _⟩ => ⟨S64x64, .f32⟩
  | .hbm, ⟨80, _⟩ => ⟨S150000x64, .f32⟩
  | _, _ => ⟨S2400000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_10 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  concatenates_S100000x64_S50000x64_S150000x64_d0 : Shape.Concatenates [S100000x64, S50000x64] S150000x64 0
  bcast_S2400000_S2400000x1_0 : S2400000.BroadcastsInDim S2400000x1 (![0] : Fin 1 → Fin S2400000x1.rank)
  bcast_S_S2400000 : S_.BroadcastsInDim S2400000 (![] : Fin 0 → Fin S2400000.rank)
  bcast_S2400000x1_S2400000x64_0_1 : S2400000x1.BroadcastsInDim S2400000x64 (![0, 1] : Fin 2 → Fin S2400000x64.rank)
  bcast_S_S150000x64 : S_.BroadcastsInDim S150000x64 (![] : Fin 0 → Fin S150000x64.rank)
  transposes_S64x64_S64x64_1_0 : S64x64.Transposes [1, 0] S64x64
  gather_S150000x64_S2400000x1_S2400000x64_1_0_n_n_0_1_164_wf : GatherDims.WF S150000x64 S2400000x1 S2400000x64 [1] [0] [] [0] [] 1 ![1, 64]
  scatter_S150000x64_S2400000x1_S2400000x64_1_0_0_1_wf : ScatterDims.WF S150000x64 S2400000x1 S2400000x64 [1] [0] [0] 1
  dot_S150000x64_S64x64_S150000x64_1_0_0_1_n_n_wf : DotDims.WF S150000x64 S64x64 S150000x64 [1] [0] [0] [1] [] []

variable [Facts₀]

def gather_S150000x64_S2400000x1_S2400000x64_1_0_n_n_0_1_164 : GatherDims S150000x64 S2400000x1 S2400000x64 where
  offsetDims := [1]
  collapsedSliceDims := [0]
  operandBatchingDims := []
  startIndicesBatchingDims := []
  startIndexMap := [0]
  indexVectorDim := 1
  sliceSizes := ![1, 64]
  wf := gather_S150000x64_S2400000x1_S2400000x64_1_0_n_n_0_1_164_wf
def scatter_S150000x64_S2400000x1_S2400000x64_1_0_0_1 : ScatterDims S150000x64 S2400000x1 S2400000x64 where
  updateWindowDims := [1]
  insertedWindowDims := [0]
  scatterDimsToOperandDims := [0]
  indexVectorDim := 1
  wf := scatter_S150000x64_S2400000x1_S2400000x64_1_0_0_1_wf
def dot_S150000x64_S64x64_S150000x64_1_0_0_1_n_n : DotDims S150000x64 S64x64 S150000x64 where
  lhsContracting := [1]
  rhsContracting := [0]
  lhsNonContracting := [0]
  rhsNonContracting := [1]
  lhsBatch := []
  rhsBatch := []
  wf := dot_S150000x64_S64x64_S150000x64_1_0_0_1_n_n_wf

class Facts : Prop extends Facts₀ where

variable [Facts]
-- ==== Proof.Spec.lean ====
/-
  The function both programs compute on a row.

  One layer sends a row `a` of 64 extended reals through a leaky rectifier, multiplies by the transpose of a
  64 × 64 matrix `w1`, by the transpose of `w3`, rectifies again, and multiplies by the transpose of `w4`:
      y  = leaky a            (entry by entry)
      h₁ = y  · w1ᵀ           h₁ j = Σ k, y k · w1 (j, k)
      z  = h₁ · w3ᵀ
      t  = leaky z
      out = t · w4ᵀ.
  `leaky x` is `x` where `x ≥ 0` and `c · x` elsewhere, `c` the binary32 number nearest one tenth; both programs spell
  the comparison, the constant and the product in the same way, so it is kept here as they spell it and never opened.
  Every product with a matrix is a finite sum in the commutative monoid of the extended reals: no order of summation,
  no finiteness of the entries is needed to compare two ways of writing it.

  `dense n` applies the row function to every row of an n × 64 array.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The square weight matrices' shape. -/
abbrev SW : Shape := ⟨2, ![64, 64]⟩

/-- The leaky rectifier: `x` where `x ≥ 0`, one tenth (as a binary32 number) of `x` elsewhere. -/
def leaky (x : EReal) : EReal :=
  Scalar.select (FloatOps.cmpf (F := Ideal) (φ := .f32) .oge x (FloatOps.ofBits (F := Ideal) .f32 0x00000000#32)) x
    (FloatOps.mulf (F := Ideal) (φ := .f32) (FloatOps.ofBits (F := Ideal) .f32 0x3DCCCCCD#32) x)

/-- A row times the transpose of a matrix: entry `j` is `Σ k, a k · w (j, k)`. -/
def rowMulT (a : Fin 64 → EReal) (w : SW.Idx → EReal) (j : Fin 64) : EReal :=
  ∑ k : Fin 64, a k * w (ix2 j k)

/-- One layer on a row: rectify, two products, rectify, one product. -/
def chain (a : Fin 64 → EReal) (w1 w3 w4 : SW.Idx → EReal) (j : Fin 64) : EReal :=
  rowMulT (fun k => leaky (rowMulT (rowMulT (fun k' => leaky (a k')) w1) w3 k)) w4 j

/-- The layer on every row of an `n × 64` array. -/
def dense (n : Nat) (h : (⟨2, ![n, 64]⟩ : Shape).Idx → EReal) (w1 w3 w4 : SW.Idx → EReal) :
    (⟨2, ![n, 64]⟩ : Shape).Idx → EReal :=
  fun i => chain (fun k => h (ix2 (i 0) k)) w1 w3 w4 (i 1)

theorem dense_apply (n : Nat) (h : (⟨2, ![n, 64]⟩ : Shape).Idx → EReal) (w1 w3 w4 : SW.Idx → EReal) (p : Fin n) (q : Fin 64) :
    dense n h w1 w3 w4 (ix2 p q) = chain (fun k => h (ix2 p k)) w1 w3 w4 q := rfl

end Cert.Spec

end
-- ==== Proof.Sparse.lean ====
/-
  The host side of a layer, kept closed.

  Before each region @main gathers, for every edge, the row of the node array its column index names (an index below
  zero first moved up by the number of nodes), scales that row by the edge's value, and adds the scaled rows into the
  rows their row indices name, from an array of zeros: the product of the sparse adjacency matrix with the node array.
  Both programs print these operations with the same dimension numbers and literals, so the step is ONE function
  `spmm` of the three edge arrays and the node array, written here as the printed operations and never opened: the two
  programs are compared around it. `xcat` is the joined embedding table (users' rows, then items' rows).

  With the layer of `Spec.lean` on every row, the program's three results are `xcat`, `out1` and `out2` below.
-/
import proofs.«142948_j10746008175460_1_alg».proof.Proof.Gen.KernelIdeal
import proofs.«142948_j10746008175460_1_alg».proof.Proof.Spec

noncomputable section

namespace Cert.KernelIdeal.Sparse

open Cert.KernelIdeal Cert.Spec Idealize.ShloMosaic
open Cert.KernelIdeal.Facts₀ Cert.KernelIdeal.Facts

variable {F : FTy → Type} [FloatOps F]

/-- The two embedding tables joined along the rows. -/
def xcat (a : (⟨S100000x64, .f32⟩ : BufTy).Contents (Elt F)) (b : (⟨S50000x64, .f32⟩ : BufTy).Contents (Elt F)) : (⟨S150000x64, .f32⟩ : BufTy).Contents (Elt F) :=
  concatenate S150000x64 0 [⟨S100000x64, a⟩, ⟨S50000x64, b⟩] concatenates_S100000x64_S50000x64_S150000x64_d0

/-- The sparse product: row `r` of the result is the sum, over the edges whose row index is `r`, of the edge's value times
    the row of `x` its column index names. Kept as the host operations print it. -/
def spmm (er ec : (⟨S2400000, .i32⟩ : BufTy).Contents (Elt F)) (ev : (⟨S2400000, .f32⟩ : BufTy).Contents (Elt F)) (x : (⟨S150000x64, .f32⟩ : BufTy).Contents (Elt F)) : (⟨S150000x64, .f32⟩ : BufTy).Contents (Elt F) :=
  Host.scatterAdd scatter_S150000x64_S2400000x1_S2400000x64_1_0_0_1 (broadcastInDim S150000x64 ![] bcast_S_S150000x64 (constant S_ .f32 0x00000000#32)) (broadcastInDim S2400000x1 ![0] bcast_S2400000_S2400000x1_0 er) (mulf (broadcastInDim S2400000x64 ![0, 1] bcast_S2400000x1_S2400000x64_0_1 (broadcastInDim S2400000x1 ![0] bcast_S2400000_S2400000x1_0 ev)) (Host.gather gather_S150000x64_S2400000x1_S2400000x64_1_0_n_n_0_1_164 x (broadcastInDim S2400000x1 ![0] bcast_S2400000_S2400000x1_0 (select (cmpi .slt ec (broadcastInDim S2400000 ![] bcast_S_S2400000 (constantI S_ 32 0#32))) (addi ec (broadcastInDim S2400000 ![] bcast_S_S2400000 (constantI S_ 32 150000#32))) ec))))

section AtIdeal

variable (er ec : (⟨S2400000, .i32⟩ : BufTy).Contents (Elt Ideal)) (ev : (⟨S2400000, .f32⟩ : BufTy).Contents (Elt Ideal))
  (a : (⟨S100000x64, .f32⟩ : BufTy).Contents (Elt Ideal)) (b : (⟨S50000x64, .f32⟩ : BufTy).Contents (Elt Ideal))
  (w1 w3 w4 : (⟨S64x64, .f32⟩ : BufTy).Contents (Elt Ideal))

/-- The first layer's result: the layer on every row of the sparse product with the embedding table. -/
def out1 : (⟨S150000x64, .f32⟩ : BufTy).Contents (Elt Ideal) :=
  dense 150000 (spmm (F := Ideal) er ec ev (xcat (F := Ideal) a b)) w1 w3 w4

/-- The second layer's result: the same two steps on the first layer's result. -/
def out2 : (⟨S150000x64, .f32⟩ : BufTy).Contents (Elt Ideal) :=
  dense 150000 (spmm (F := Ideal) er ec ev (out1 er ec ev a b w1 w3 w4)) w1 w3 w4

end AtIdeal

end Cert.KernelIdeal.Sparse

end
-- ==== Proof.RefLayer.lean ====
/-
  The reference program's results as the same functions of the arguments.

  The reference computes a layer on the host: it selects between the sparse product and a tenth of it where the product
  is negative, multiplies by the transposed first matrix, by the transposed second, selects again, and multiplies by
  the transposed third. Read at an index, each selection is the leaky rectifier of `Spec.lean` and each product is a
  row times the transpose of the matrix, so the layer's result is `dense` of the sparse product. The sparse product
  itself is, operation for operation, the function `spmm` of `Sparse.lean`, and the joined table is `xcat`.
-/
import proofs.«142948_j10746008175460_1_alg».proof.Proof.RefRead
import proofs.«142948_j10746008175460_1_alg».proof.Proof.Sparse
import proofs.«142948_j10746008175460_1_alg».proof.Proof.Spec
import Idealize.ShloMosaic.Lib.ValueIdx

noncomputable section

namespace Cert.ReferenceIdeal.Layer

open Cert.ReferenceIdeal Cert.ReferenceIdeal.ReadP Cert.Spec Cert.KernelIdeal.Sparse
open Idealize.ShloMosaic Idealize.ShloMosaic.ValueIdx

variable (x0 x1 : (⟨S2400000, .i32⟩ : BufTy).Contents (Elt Ideal)) (x2 : (⟨S2400000, .f32⟩ : BufTy).Contents (Elt Ideal))
  (x3 : (⟨S100000x64, .f32⟩ : BufTy).Contents (Elt Ideal)) (x4 : (⟨S50000x64, .f32⟩ : BufTy).Contents (Elt Ideal))
  (x5 x6 x7 : (⟨S64x64, .f32⟩ : BufTy).Contents (Elt Ideal))

/-! ## The first layer -/

/-- The selection between a value and a tenth of it, at an index, is the leaky rectifier of the value there. -/
theorem l1_rect1 (i : S150000x64.Idx) :
    val_main_v18 (F := Ideal) x0 x1 x2 x3 x4 i = leaky (val_main_v13 (F := Ideal) x0 x1 x2 x3 x4 i) := by
  rw [val_main_v18_apply, val_main_v15_apply, val_main_v17_apply, val_main_v14_apply, val_main_v16_apply, val_main_cst_1_apply, val_main_cst_2_apply]
  rfl

/-- A product with a transposed matrix, at `(p, j)`: the row `p` of the left factor times the transpose. -/
theorem l1_prod1 (p : Fin 150000) (j : Fin 64) :
    val_main_v20 (F := Ideal) x0 x1 x2 x3 x4 x5 (ix2 p j) = rowMulT (fun k => val_main_v18 (F := Ideal) x0 x1 x2 x3 x4 (ix2 p k)) x5 j := by
  rw [val_main_v20_apply]
  unfold rowMulT
  refine Finset.sum_congr rfl fun k _ => ?_
  rw [val_main_v19_apply]
  have e1 : lidx_main_v20 (ix2 p j) k = ix2 p k := funext fun a => by
    match a with
    | ⟨0, _⟩ => rfl
    | ⟨1, _⟩ => rfl
  have e2 : idx_main_v19 (ridx_main_v20 (ix2 p j) k) = ix2 j k := funext fun a => by
    match a with
    | ⟨0, _⟩ => rfl
    | ⟨1, _⟩ => rfl
  rw [e1, e2]

/-- A product with a transposed matrix, at `(p, j)`: the row `p` of the left factor times the transpose. -/
theorem l1_prod2 (p : Fin 150000) (j : Fin 64) :
    val_main_v22 (F := Ideal) x0 x1 x2 x3 x4 x5 x6 (ix2 p j) = rowMulT (fun k => val_main_v20 (F := Ideal) x0 x1 x2 x3 x4 x5 (ix2 p k)) x6 j := by
  rw [val_main_v22_apply]
  unfold rowMulT
  refine Finset.sum_congr rfl fun k _ => ?_
  rw [val_main_v21_apply]
  have e1 : lidx_main_v22 (ix2 p j) k = ix2 p k := funext fun a => by
    match a with
    | ⟨0, _⟩ => rfl
    | ⟨1, _⟩ => rfl
  have e2 : idx_main_v21 (ridx_main_v22 (ix2 p j) k) = ix2 j k := funext fun a => by
    match a with
    | ⟨0, _⟩ => rfl
    | ⟨1, _⟩ => rfl
  rw [e1, e2]

/-- The selection between a value and a tenth of it, at an index, is the leaky rectifier of the value there. -/
theorem l1_rect2 (i : S150000x64.Idx) :
    val_main_v27 (F := Ideal) x0 x1 x2 x3 x4 x5 x6 i = leaky (val_main_v22 (F := Ideal) x0 x1 x2 x3 x4 x5 x6 i) := by
  rw [val_main_v27_apply, val_main_v24_apply, val_main_v26_apply, val_main_v23_apply, val_main_v25_apply, val_main_cst_3_apply, val_main_cst_4_apply]
  rfl

/-- A product with a transposed matrix, at `(p, j)`: the row `p` of the left factor times the transpose. -/
theorem l1_prod3 (p : Fin 150000) (j : Fin 64) :
    val_main_v29 (F := Ideal) x0 x1 x2 x3 x4 x5 x6 x7 (ix2 p j) = rowMulT (fun k => val_main_v27 (F := Ideal) x0 x1 x2 x3 x4 x5 x6 (ix2 p k)) x7 j := by
  rw [val_main_v29_apply]
  unfold rowMulT
  refine Finset.sum_congr rfl fun k _ => ?_
  rw [val_main_v28_apply]
  have e1 : lidx_main_v29 (ix2 p j) k = ix2 p k := funext fun a => by
    match a with
    | ⟨0, _⟩ => rfl
    | ⟨1, _⟩ => rfl
  have e2 : idx_main_v28 (ridx_main_v29 (ix2 p j) k) = ix2 j k := funext fun a => by
    match a with
    | ⟨0, _⟩ => rfl
    | ⟨1, _⟩ => rfl
  rw [e1, e2]

/-- The layer's result is the layer of `Spec.lean` on every row of the sparse product it starts from. -/
theorem l1_dense :
    val_main_v29 (F := Ideal) x0 x1 x2 x3 x4 x5 x6 x7 = dense 150000 (val_main_v13 (F := Ideal) x0 x1 x2 x3 x4) x5 x6 x7 := by
  funext i
  obtain ⟨p, q, rfl⟩ : ∃ (p : Fin 150000) (q : Fin 64), i = ix2 p q := ⟨i 0, i 1, eq_ix2 i⟩
  rw [dense_apply]
  unfold chain
  refine (l1_prod3 x0 x1 x2 x3 x4 x5 x6 x7 p q).trans ?_
  refine congrArg (fun a => rowMulT a x7 q) (funext fun k => ?_)
  refine (l1_rect2 x0 x1 x2 x3 x4 x5 x6 (ix2 p k)).trans ?_
  refine congrArg leaky ?_
  refine (l1_prod2 x0 x1 x2 x3 x4 x5 x6 p k).trans ?_
  refine congrArg (fun a => rowMulT a x6 k) (funext fun k' => ?_)
  refine (l1_prod1 x0 x1 x2 x3 x4 x5 p k').trans ?_
  refine congrArg (fun a => rowMulT a x5 k') (funext fun k'' => ?_)
  exact l1_rect1 x0 x1 x2 x3 x4 (ix2 p k'')

/-! ## The second layer -/

/-- The selection between a value and a tenth of it, at an index, is the leaky rectifier of the value there. -/
theorem l2_rect1 (i : S150000x64.Idx) :
    val_main_v47 (F := Ideal) x0 x1 x2 x3 x4 x5 x6 x7 i = leaky (val_main_v42 (F := Ideal) x0 x1 x2 x3 x4 x5 x6 x7 i) := by
  rw [val_main_v47_apply, val_main_v44_apply, val_main_v46_apply, val_main_v43_apply, val_main_v45_apply, val_main_cst_8_apply, val_main_cst_9_apply]
  rfl

/-- A product with a transposed matrix, at `(p, j)`: the row `p` of the left factor times the transpose. -/
theorem l2_prod1 (p : Fin 150000) (j : Fin 64) :
    val_main_v49 (F := Ideal) x0 x1 x2 x3 x4 x5 x6 x7 (ix2 p j) = rowMulT (fun k => val_main_v47 (F := Ideal) x0 x1 x2 x3 x4 x5 x6 x7 (ix2 p k)) x5 j := by
  rw [val_main_v49_apply]
  unfold rowMulT
  refine Finset.sum_congr rfl fun k _ => ?_
  rw [val_main_v48_apply]
  have e1 : lidx_main_v49 (ix2 p j) k = ix2 p k := funext fun a => by
    match a with
    | ⟨0, _⟩ => rfl
    | ⟨1, _⟩ => rfl
  have e2 : idx_main_v48 (ridx_main_v49 (ix2 p j) k) = ix2 j k := funext fun a => by
    match a with
    | ⟨0, _⟩ => rfl
    | ⟨1, _⟩ => rfl
  rw [e1, e2]

/-- A product with a transposed matrix, at `(p, j)`: the row `p` of the left factor times the transpose. -/
theorem l2_prod2 (p : Fin 150000) (j : Fin 64) :
    val_main_v51 (F := Ideal) x0 x1 x2 x3 x4 x5 x6 x7 (ix2 p j) = rowMulT (fun k => val_main_v49 (F := Ideal) x0 x1 x2 x3 x4 x5 x6 x7 (ix2 p k)) x6 j := by
  rw [val_main_v51_apply]
  unfold rowMulT
  refine Finset.sum_congr rfl fun k _ => ?_
  rw [val_main_v50_apply]
  have e1 : lidx_main_v51 (ix2 p j) k = ix2 p k := funext fun a => by
    match a with
    | ⟨0, _⟩ => rfl
    | ⟨1, _⟩ => rfl
  have e2 : idx_main_v50 (ridx_main_v51 (ix2 p j) k) = ix2 j k := funext fun a => by
    match a with
    | ⟨0, _⟩ => rfl
    | ⟨1, _⟩ => rfl
  rw [e1, e2]

/-- The selection between a value and a tenth of it, at an index, is the leaky rectifier of the value there. -/
theorem l2_rect2 (i : S150000x64.Idx) :
    val_main_v56 (F := Ideal) x0 x1 x2 x3 x4 x5 x6 x7 i = leaky (val_main_v51 (F := Ideal) x0 x1 x2 x3 x4 x5 x6 x7 i) := by
  rw [val_main_v56_apply, val_main_v53_apply, val_main_v55_apply, val_main_v52_apply, val_main_v54_apply, val_main_cst_10_apply, val_main_cst_11_apply]
  rfl

/-- A product with a transposed matrix, at `(p, j)`: the row `p` of the left factor times the transpose. -/
theorem l2_prod3 (p : Fin 150000) (j : Fin 64) :
    val_main_v58 (F := Ideal) x0 x1 x2 x3 x4 x5 x6 x7 (ix2 p j) = rowMulT (fun k => val_main_v56 (F := Ideal) x0 x1 x2 x3 x4 x5 x6 x7 (ix2 p k)) x7 j := by
  rw [val_main_v58_apply]
  unfold rowMulT
  refine Finset.sum_congr rfl fun k _ => ?_
  rw [val_main_v57_apply]
  have e1 : lidx_main_v58 (ix2 p j) k = ix2 p k := funext fun a => by
    match a with
    | ⟨0, _⟩ => rfl
    | ⟨1, _⟩ => rfl
  have e2 : idx_main_v57 (ridx_main_v58 (ix2 p j) k) = ix2 j k := funext fun a => by
    match a with
    | ⟨0, _⟩ => rfl
    | ⟨1, _⟩ => rfl
  rw [e1, e2]

/-- The layer's result is the layer of `Spec.lean` on every row of the sparse product it starts from. -/
theorem l2_dense :
    val_main_v58 (F := Ideal) x0 x1 x2 x3 x4 x5 x6 x7 = dense 150000 (val_main_v42 (F := Ideal) x0 x1 x2 x3 x4 x5 x6 x7) x5 x6 x7 := by
  funext i
  obtain ⟨p, q, rfl⟩ : ∃ (p : Fin 150000) (q : Fin 64), i = ix2 p q := ⟨i 0, i 1, eq_ix2 i⟩
  rw [dense_apply]
  unfold chain
  refine (l2_prod3 x0 x1 x2 x3 x4 x5 x6 x7 p q).trans ?_
  refine congrArg (fun a => rowMulT a x7 q) (funext fun k => ?_)
  refine (l2_rect2 x0 x1 x2 x3 x4 x5 x6 x7 (ix2 p k)).trans ?_
  refine congrArg leaky ?_
  refine (l2_prod2 x0 x1 x2 x3 x4 x5 x6 x7 p k).trans ?_
  refine congrArg (fun a => rowMulT a x6 k) (funext fun k' => ?_)
  refine (l2_prod1 x0 x1 x2 x3 x4 x5 x6 x7 p k').trans ?_
  refine congrArg (fun a => rowMulT a x5 k') (funext fun k'' => ?_)
  exact l2_rect1 x0 x1 x2 x3 x4 x5 x6 x7 (ix2 p k'')

/-! ## The sparse products and the three results -/

/-- The joined table is `xcat`. -/
theorem v0_eq : val_main_v0 (F := Ideal) x3 x4 = xcat (F := Ideal) x3 x4 := rfl

/-- The first sparse product, operation for operation. -/
theorem v13_eq : val_main_v13 (F := Ideal) x0 x1 x2 x3 x4 = spmm (F := Ideal) x0 x1 x2 (xcat (F := Ideal) x3 x4) := by
  unfold val_main_v13 val_main_v12 val_main_v11 val_main_v10 val_main_v9 val_main_v8 val_main_v7 val_main_v6 val_main_v5 val_main_v4 val_main_v3 val_main_v2 val_main_v1 val_main_v0 val_main_cst val_main_c val_main_c_0 spmm xcat
  rfl

/-- The first layer's result. -/
theorem v29_eq : val_main_v29 (F := Ideal) x0 x1 x2 x3 x4 x5 x6 x7 = out1 x0 x1 x2 x3 x4 x5 x6 x7 := by
  refine (l1_dense x0 x1 x2 x3 x4 x5 x6 x7).trans ?_
  rw [v13_eq]
  rfl

/-- The second sparse product, operation for operation, of the first layer's result. -/
theorem v42_eq : val_main_v42 (F := Ideal) x0 x1 x2 x3 x4 x5 x6 x7 = spmm (F := Ideal) x0 x1 x2 (val_main_v29 (F := Ideal) x0 x1 x2 x3 x4 x5 x6 x7) := by
  unfold val_main_v42 val_main_v41 val_main_v40 val_main_v39 val_main_v38 val_main_v37 val_main_v36 val_main_v35 val_main_v34 val_main_v33 val_main_v32 val_main_v31 val_main_v30 val_main_cst_7 val_main_c_5 val_main_c_6 spmm
  rfl

/-- The second layer's result. -/
theorem v58_eq : val_main_v58 (F := Ideal) x0 x1 x2 x3 x4 x5 x6 x7 = out2 x0 x1 x2 x3 x4 x5 x6 x7 := by
  refine (l2_dense x0 x1 x2 x3 x4 x5 x6 x7).trans ?_
  rw [v42_eq, v29_eq]
  rfl

end Cert.ReferenceIdeal.Layer

end
-- ==== Proof.KernelRun.lean ====
/-
  The kernel program's run with its results in view.

  @main is four segments: the host operations before the first region, the first region, the host operations between
  the regions, the second region. The frame certificate follows the contents of every buffer through the four
  (`Gen.W0` … `Gen.W4`) and reads the final memory against the last of them, keeping only the arguments. Here the same
  run is read at the three result buffers as well: each ends at what `Gen.W4` holds there.
-/
import proofs.«142948_j10746008175460_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with each result buffer at the last boundary's
    contents and the arguments as launched. -/
theorem run : θ_run defs (onTc (τ := τ) (main (F := F))) ⟨m, fun _ => 0, ρ⟩ (fun r => ∀ c : Dev nD,
      r.2.mem ((c.tc : Thread nD τ).loc main_v0) = W4 m ρ c (Proc.devRef .tc main_v0)
      ∧ r.2.mem ((c.tc : Thread nD τ).loc main_v14) = W4 m ρ c (Proc.devRef .tc main_v14)
      ∧ r.2.mem ((c.tc : Thread nD τ).loc main_v28) = W4 m ρ c (Proc.devRef .tc main_v28)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v0 (by decide)),
       h c _ (mem_uc main_v14 (by decide)),
       h c _ (mem_uc main_v28 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.RunValue

end
-- ==== Proof.KernelBody.lean ====
/-
  The kernel's body on one block of 3000 rows is the layer of `Spec.lean` on each of its rows.

  The body's one stored value is a product `t · w4ᵀ` into a zero accumulator, `t` the rectified product of products
  below it. Read at an index `(p, q)`, a product of a 3000 × 64 array with a transposed 64 × 64 matrix into the zero
  accumulator is the sum over the one contracted coordinate `k` of the left factor at `(p, k)` times the matrix at
  `(q, k)`; the rounding to the narrower format in front of each product is the identity on extended reals, and the
  cast of the loaded block to its own shape is the identity.
-/
import proofs.«142948_j10746008175460_1_alg».proof.Proof.Gen.KernelIdeal.Skeleton
import proofs.«142948_j10746008175460_1_alg».proof.Proof.Spec
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Cert.Spec
open Idealize.ShloMosaic Idealize.ShloMosaic.ValueIdx

/-- The contracted coordinate sits on the left factor's second axis and on the right factor's first. -/
theorem lhs_0 (i : S3000x64.Idx) (q : dot_S3000x64_S64x64_S3000x64_1_0_0_1_n_n.contr.Idx) :
    (dot_S3000x64_S64x64_S3000x64_1_0_0_1_n_n.lhsIdx i q 0).val = (i 0).val := by
  unfold DotDims.lhsIdx
  rw [dif_neg (show ¬(0 : Fin S3000x64.rank) ∈ dot_S3000x64_S64x64_S3000x64_1_0_0_1_n_n.lhsBatch by decide), dif_pos (show (0 : Fin S3000x64.rank) ∈ dot_S3000x64_S64x64_S3000x64_1_0_0_1_n_n.lhsNonContracting by decide)]
  rfl
theorem lhs_1 (i : S3000x64.Idx) (q : dot_S3000x64_S64x64_S3000x64_1_0_0_1_n_n.contr.Idx) :
    (dot_S3000x64_S64x64_S3000x64_1_0_0_1_n_n.lhsIdx i q 1).val = (q ⟨0, by decide⟩).val :=
  dot_S3000x64_S64x64_S3000x64_1_0_0_1_n_n.lhsIdx_val_of_single rfl i q
theorem rhs_0 (i : S3000x64.Idx) (q : dot_S3000x64_S64x64_S3000x64_1_0_0_1_n_n.contr.Idx) :
    (dot_S3000x64_S64x64_S3000x64_1_0_0_1_n_n.rhsIdx i q 0).val = (q ⟨0, by decide⟩).val :=
  dot_S3000x64_S64x64_S3000x64_1_0_0_1_n_n.rhsIdx_val_of_single rfl i q
theorem rhs_1 (i : S3000x64.Idx) (q : dot_S3000x64_S64x64_S3000x64_1_0_0_1_n_n.contr.Idx) :
    (dot_S3000x64_S64x64_S3000x64_1_0_0_1_n_n.rhsIdx i q 1).val = (i 1).val := by
  unfold DotDims.rhsIdx
  rw [dif_neg (show ¬(1 : Fin S64x64.rank) ∈ dot_S3000x64_S64x64_S3000x64_1_0_0_1_n_n.rhsBatch by decide), dif_pos (show (1 : Fin S64x64.rank) ∈ dot_S3000x64_S64x64_S3000x64_1_0_0_1_n_n.rhsNonContracting by decide)]
  rfl

/-- A product into the zero accumulator, at `(p, q)`: the sum over `k` of the left factor at `(p, k)` times the right
    factor at `(k, q)`. -/
theorem matmul_at {φ₁ φ₂ : FTy} (l : FVec Ideal S3000x64 φ₁) (r : FVec Ideal S64x64 φ₂) (p : Fin 3000) (q : Fin 64) :
    matmul dot_S3000x64_S64x64_S3000x64_1_0_0_1_n_n none l r (constant S3000x64 .f32 0x00000000#32) (ix2 p q)
      = ∑ k : Fin 64, l (ix2 p k) * r (ix2 k q) := by
  simp only [matmul]
  rw [Ideal.matmul_constant_zero_apply, ← Equiv.sum_comp (contrEquiv1 dot_S3000x64_S64x64_S3000x64_1_0_0_1_n_n 64 rfl rfl).symm]
  refine Finset.sum_congr rfl fun k _ => ?_
  have hk := contrEquiv1_symm_val dot_S3000x64_S64x64_S3000x64_1_0_0_1_n_n 64 rfl rfl k
  have el : dot_S3000x64_S64x64_S3000x64_1_0_0_1_n_n.lhsIdx (ix2 p q) ((contrEquiv1 dot_S3000x64_S64x64_S3000x64_1_0_0_1_n_n 64 rfl rfl).symm k) = ix2 p k := funext fun a => Fin.ext (by
    match a with
    | ⟨0, _⟩ => exact lhs_0 _ _
    | ⟨1, _⟩ => exact (lhs_1 _ _).trans hk)
  have er : dot_S3000x64_S64x64_S3000x64_1_0_0_1_n_n.rhsIdx (ix2 p q) ((contrEquiv1 dot_S3000x64_S64x64_S3000x64_1_0_0_1_n_n 64 rfl rfl).symm k) = ix2 k q := funext fun a => Fin.ext (by
    match a with
    | ⟨0, _⟩ => exact (rhs_0 _ _).trans hk
    | ⟨1, _⟩ => exact rhs_1 _ _)
  rw [el, er]

/-- The transposed matrix at `(k, q)` is the matrix at `(q, k)`. -/
theorem transpose_at {α : Type} (w : S64x64.Idx → α) (k q : Fin 64) :
    transpose S64x64 [1, 0] w transposes_S64x64_p1_0_S64x64 (ix2 k q) = w (ix2 q k) :=
  transpose_apply [1, 0] w transposes_S64x64_p1_0_S64x64 (ix2 k q) (ix2 q k) (fun b => match b with
    | ⟨0, _⟩ => rfl
    | ⟨1, _⟩ => rfl)

/-- A product with a transposed matrix into the zero accumulator is a row times the transpose. -/
theorem matmulT_at {φ₁ φ₂ : FTy} (l : FVec Ideal S3000x64 φ₁) (w : FVec Ideal S64x64 φ₂) (p : Fin 3000) (q : Fin 64) :
    matmul dot_S3000x64_S64x64_S3000x64_1_0_0_1_n_n none l (transpose S64x64 [1, 0] w transposes_S64x64_p1_0_S64x64) (constant S3000x64 .f32 0x00000000#32) (ix2 p q)
      = rowMulT (fun k => l (ix2 p k)) w q := by
  rw [matmul_at]
  unfold rowMulT
  exact Finset.sum_congr rfl fun k _ => congrArg (l (ix2 p k) * ·) (transpose_at w k q)

/-- The body's stored value is the layer on each row of the loaded block. -/
theorem pay_eq (x0 : Vec Ideal S3000x64 .f32) (x1 x2 x3 : Vec Ideal S64x64 .f32) :
    k0_pay1 (F := Ideal) x0 x1 x2 x3 = dense 3000 x0 x1 x2 x3 := by
  funext j
  obtain ⟨p, q, rfl⟩ : ∃ (p : Fin 3000) (q : Fin 64), j = ix2 p q := ⟨j 0, j 1, eq_ix2 j⟩
  rw [dense_apply]
  unfold k0_pay1 chain
  simp only [shapeCast_self]
  refine (matmulT_at _ _ p q).trans ?_
  refine congrArg (fun a => rowMulT a x3 q) (funext fun k => ?_)
  refine congrArg leaky ?_
  refine (matmulT_at _ _ p k).trans ?_
  refine congrArg (fun a => rowMulT a x2 k) (funext fun k' => ?_)
  exact matmulT_at _ _ p k'

/-- The second region's body is the same text. -/
theorem pay1_eq (x0 : Vec Ideal S3000x64 .f32) (x1 x2 x3 : Vec Ideal S64x64 .f32) :
    k1_pay1 (F := Ideal) x0 x1 x2 x3 = dense 3000 x0 x1 x2 x3 :=
  (show k1_pay1 (F := Ideal) x0 x1 x2 x3 = k0_pay1 (F := Ideal) x0 x1 x2 x3 from rfl).trans (pay_eq x0 x1 x2 x3)

end Cert.KernelIdeal.Body

end
-- ==== Proof.KernelBlocks.lean ====
/-
  From blocks to arrays, for each of the two regions and for ANY contents `V` the region is entered with.

  A region walks the 150000 rows in fifty blocks of 3000. At point `t` its body reads rows `3000 t … 3000 t + 2999`
  of the input array and the three whole 64 × 64 matrices, and writes the same rows of the output array. The body's
  value on a block is the layer of `Spec.lean` on each row (`KernelBody.lean`), and a row of the block is a row of the
  array, so what point `t` writes back is block `t` of ONE function of the arrays: the layer applied to the whole input
  array. The fifty blocks cover the output array (row `r` lies in block `r / 3000`), so after the region the output
  array is that function.
-/
import proofs.«142948_j10746008175460_1_alg».proof.Proof.Gen.KernelIdeal.Frame
import proofs.«142948_j10746008175460_1_alg».proof.Proof.KernelBody
import Idealize.ShloMosaic.Lib.Pipeline.Value
import Idealize.ShloMosaic.Lib.ValueIdx

noncomputable section

namespace Cert.KernelIdeal.Blocks

open Cert.KernelIdeal Cert.KernelIdeal.Gen Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The layer on a block is the layer on the array, row by row: if row `y 0` of the block `x0` is row `i 0` of the array
    `H`, the column is the same and the matrices are the same, the two values agree. -/
theorem dense_block (H : S150000x64.Idx → EReal) (w1 w3 w4 : S64x64.Idx → EReal) (x0 : S3000x64.Idx → EReal)
    (x1 x2 x3 : S64x64.Idx → EReal) (y : S3000x64.Idx) (i : S150000x64.Idx)
    (hx : ∀ k : Fin 64, x0 (ix2 (y 0) k) = H (ix2 (i 0) k)) (h1 : (i 1).val = (y 1).val)
    (e1 : x1 = w1) (e2 : x2 = w3) (e3 : x3 = w4) :
    dense 3000 x0 x1 x2 x3 y = dense 150000 H w1 w3 w4 i := by
  subst e1 e2 e3
  have ha : (fun k : Fin 64 => x0 (ix2 (y 0) k)) = fun k : Fin 64 => H (ix2 (i 0) k) := funext hx
  have hq : (y 1 : Fin 64) = (i 1 : Fin 64) := Fin.ext h1.symm
  show chain (fun k : Fin 64 => x0 (ix2 (y 0) k)) x1 x2 x3 (y 1) = chain (fun k : Fin 64 => H (ix2 (i 0) k)) x1 x2 x3 (i 1)
  rw [ha, hq]

/-! ## Region 0 -/

/-- The printed index maps over the grid: the row blocks of the input and of the output move with the point, every
    other block index is zero. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What point `t` writes back is block `t` of the layer applied to the input array as the region finds it: row
    `3000 t + p` of the output depends on row `3000 t + p` of the input and on the three whole matrices. -/
theorem flushed0_eq (c : Dev nD) (t : Fin cfg0.N) :
    (dat0 (F := Ideal) V c).flushed 4 t = ((cfg0.win 4).blk t).view.read (Elt Ideal)
      (dense 150000 (V c main_v13) (V c main_arg5) (V c main_arg6) (V c main_arg7)) := by
  show (cfg0.win 4).cut (grid0.coords t) ((dat0 V c).after 4 t) = _
  rw [after0_4]
  unfold out0_4
  rw [View.canon_unit_zero hz]
  simp only [View.ld_unit_zero (S := S3000x64) hz, View.ld_unit_zero (S := S64x64) hz]
  rw [Body.pay_eq]
  obtain ⟨a0, a1, b0, b1, c0, c1, d0, d1, e0, e1⟩ := idx0 t
  funext j
  refine dense_block (V c main_v13) (V c main_arg5) (V c main_arg6) (V c main_arg7)
    (iblk0 V c 0 t) (iblk0 V c 1 t) (iblk0 V c 2 t) (iblk0 V c 3 t) j (((cfg0.win 4).blk t).view.emb j) (fun k => ?_) ?_ ?_ ?_ ?_
  · show V c main_v13 (((cfg0.win 0).blk t).view.emb (ix2 (j 0) k)) = V c main_v13 (ix2 ((((cfg0.win 4).blk t).view.emb j) 0) k)
    refine congrArg (V c main_v13) (funext fun a => Fin.ext ?_)
    match a with
    | ⟨0, _⟩ => show win0_0.index t (0 : Fin 2) * 3000 + 1 * (j 0).val = win0_4.index t (0 : Fin 2) * 3000 + 1 * (j 0).val; omega
    | ⟨1, _⟩ => show win0_0.index t (1 : Fin 2) * 64 + 1 * k.val = k.val; omega
  · show win0_4.index t (1 : Fin 2) * 64 + 1 * (j 1).val = (j 1).val; omega
  · funext y
    show V c main_arg5 (((cfg0.win 1).blk t).view.emb y) = V c main_arg5 y
    refine congrArg (V c main_arg5) (funext fun a => Fin.ext ?_)
    match a with
    | ⟨0, _⟩ => show win0_1.index t (0 : Fin 2) * 64 + 1 * (y 0).val = (y 0).val; omega
    | ⟨1, _⟩ => show win0_1.index t (1 : Fin 2) * 64 + 1 * (y 1).val = (y 1).val; omega
  · funext y
    show V c main_arg6 (((cfg0.win 2).blk t).view.emb y) = V c main_arg6 y
    refine congrArg (V c main_arg6) (funext fun a => Fin.ext ?_)
    match a with
    | ⟨0, _⟩ => show win0_2.index t (0 : Fin 2) * 64 + 1 * (y 0).val = (y 0).val; omega
    | ⟨1, _⟩ => show win0_2.index t (1 : Fin 2) * 64 + 1 * (y 1).val = (y 1).val; omega
  · funext y
    show V c main_arg7 (((cfg0.win 3).blk t).view.emb y) = V c main_arg7 y
    refine congrArg (V c main_arg7) (funext fun a => Fin.ext ?_)
    match a with
    | ⟨0, _⟩ => show win0_3.index t (0 : Fin 2) * 64 + 1 * (y 0).val = (y 0).val; omega
    | ⟨1, _⟩ => show win0_3.index t (1 : Fin 2) * 64 + 1 * (y 1).val = (y 1).val; omega

/-- An index of the output array is in point `t`'s block iff each coordinate is in the block's range on its axis. -/
theorem mem_blk0 (t : Fin cfg0.N) (i : S150000x64.Idx) :
    i ∈ ((cfg0.win 4).blk t).view.set ↔ ∀ a : Fin 2, win0_4.index t a * S3000x64.size a ≤ (i a).val ∧ (i a).val < win0_4.index t a * S3000x64.size a + S3000x64.size a := by
  show i ∈ ((View.whole main_v14).slice (win0_4.rect t)).set ↔ _
  rw [View.set_slice_whole, Rect.mem_set_unit]
  exact Iff.rfl

/-- Row `r` of the output is written by point `r / 3000`: the fifty blocks of 3000 rows cover the array. -/
theorem cover0 (i : S150000x64.Idx) : ∃ t : Fin cfg0.N, (cfg0.win 4).flush t = true ∧ i ∈ ((cfg0.win 4).blk t).view.set := by
  have hi0 : (i 0).val < 150000 := (i 0).isLt
  have hi1 : (i 1).val < 64 := (i 1).isLt
  have hN : cfg0.N = 50 := N_0
  have hq : (i 0).val / 3000 < cfg0.N := by rw [hN]; omega
  obtain ⟨-, -, -, -, -, -, -, -, e0, e1⟩ := idx0 ⟨(i 0).val / 3000, hq⟩
  have e0' : win0_4.index ⟨(i 0).val / 3000, hq⟩ (0 : Fin 2) = (i 0).val / 3000 := e0
  refine ⟨⟨(i 0).val / 3000, hq⟩, flush0_4 _, ?_⟩
  rw [mem_blk0]
  intro a
  match a with
  | ⟨0, _⟩ => show win0_4.index ⟨(i 0).val / 3000, hq⟩ (0 : Fin 2) * 3000 ≤ (i 0).val ∧ (i 0).val < win0_4.index ⟨(i 0).val / 3000, hq⟩ (0 : Fin 2) * 3000 + 3000; omega
  | ⟨1, _⟩ => show win0_4.index ⟨(i 0).val / 3000, hq⟩ (1 : Fin 2) * 64 ≤ (i 1).val ∧ (i 1).val < win0_4.index ⟨(i 0).val / 3000, hq⟩ (1 : Fin 2) * 64 + 64; omega

/-- The output array after the region: the layer applied to the input array as the region finds it. -/
theorem final0 (c : Dev nD) :
    (dat0 (F := Ideal) V c).arrAt 4 cfg0.N = dense 150000 (V c main_v13) (V c main_arg5) (V c main_arg6) (V c main_arg7) :=
  (dat0 V c).arrAt_eq_of_cover 4 _ (fun t _ => flushed0_eq V c t) (cover0)

/-! ## Region 1 -/

/-- The printed index maps over the grid: the row blocks of the input and of the output move with the point, every
    other block index is zero. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is block `t` of the layer applied to the input array as the region finds it: row
    `3000 t + p` of the output depends on row `3000 t + p` of the input and on the three whole matrices. -/
theorem flushed1_eq (c : Dev nD) (t : Fin cfg1.N) :
    (dat1 (F := Ideal) V c).flushed 4 t = ((cfg1.win 4).blk t).view.read (Elt Ideal)
      (dense 150000 (V c main_v27) (V c main_arg5) (V c main_arg6) (V c main_arg7)) := by
  show (cfg1.win 4).cut (grid1.coords t) ((dat1 V c).after 4 t) = _
  rw [after1_4]
  unfold out1_4
  rw [View.canon_unit_zero hz]
  simp only [View.ld_unit_zero (S := S3000x64) hz, View.ld_unit_zero (S := S64x64) hz]
  rw [Body.pay1_eq]
  obtain ⟨a0, a1, b0, b1, c0, c1, d0, d1, e0, e1⟩ := idx1 t
  funext j
  refine dense_block (V c main_v27) (V c main_arg5) (V c main_arg6) (V c main_arg7)
    (iblk1 V c 0 t) (iblk1 V c 1 t) (iblk1 V c 2 t) (iblk1 V c 3 t) j (((cfg1.win 4).blk t).view.emb j) (fun k => ?_) ?_ ?_ ?_ ?_
  · show V c main_v27 (((cfg1.win 0).blk t).view.emb (ix2 (j 0) k)) = V c main_v27 (ix2 ((((cfg1.win 4).blk t).view.emb j) 0) k)
    refine congrArg (V c main_v27) (funext fun a => Fin.ext ?_)
    match a with
    | ⟨0, _⟩ => show win1_0.index t (0 : Fin 2) * 3000 + 1 * (j 0).val = win1_4.index t (0 : Fin 2) * 3000 + 1 * (j 0).val; omega
    | ⟨1, _⟩ => show win1_0.index t (1 : Fin 2) * 64 + 1 * k.val = k.val; omega
  · show win1_4.index t (1 : Fin 2) * 64 + 1 * (j 1).val = (j 1).val; omega
  · funext y
    show V c main_arg5 (((cfg1.win 1).blk t).view.emb y) = V c main_arg5 y
    refine congrArg (V c main_arg5) (funext fun a => Fin.ext ?_)
    match a with
    | ⟨0, _⟩ => show win1_1.index t (0 : Fin 2) * 64 + 1 * (y 0).val = (y 0).val; omega
    | ⟨1, _⟩ => show win1_1.index t (1 : Fin 2) * 64 + 1 * (y 1).val = (y 1).val; omega
  · funext y
    show V c main_arg6 (((cfg1.win 2).blk t).view.emb y) = V c main_arg6 y
    refine congrArg (V c main_arg6) (funext fun a => Fin.ext ?_)
    match a with
    | ⟨0, _⟩ => show win1_2.index t (0 : Fin 2) * 64 + 1 * (y 0).val = (y 0).val; omega
    | ⟨1, _⟩ => show win1_2.index t (1 : Fin 2) * 64 + 1 * (y 1).val = (y 1).val; omega
  · funext y
    show V c main_arg7 (((cfg1.win 3).blk t).view.emb y) = V c main_arg7 y
    refine congrArg (V c main_arg7) (funext fun a => Fin.ext ?_)
    match a with
    | ⟨0, _⟩ => show win1_3.index t (0 : Fin 2) * 64 + 1 * (y 0).val = (y 0).val; omega
    | ⟨1, _⟩ => show win1_3.index t (1 : Fin 2) * 64 + 1 * (y 1).val = (y 1).val; omega

/-- An index of the output array is in point `t`'s block iff each coordinate is in the block's range on its axis. -/
theorem mem_blk1 (t : Fin cfg1.N) (i : S150000x64.Idx) :
    i ∈ ((cfg1.win 4).blk t).view.set ↔ ∀ a : Fin 2, win1_4.index t a * S3000x64.size a ≤ (i a).val ∧ (i a).val < win1_4.index t a * S3000x64.size a + S3000x64.size a := by
  show i ∈ ((View.whole main_v28).slice (win1_4.rect t)).set ↔ _
  rw [View.set_slice_whole, Rect.mem_set_unit]
  exact Iff.rfl

/-- Row `r` of the output is written by point `r / 3000`: the fifty blocks of 3000 rows cover the array. -/
theorem cover1 (i : S150000x64.Idx) : ∃ t : Fin cfg1.N, (cfg1.win 4).flush t = true ∧ i ∈ ((cfg1.win 4).blk t).view.set := by
  have hi0 : (i 0).val < 150000 := (i 0).isLt
  have hi1 : (i 1).val < 64 := (i 1).isLt
  have hN : cfg1.N = 50 := N_1
  have hq : (i 0).val / 3000 < cfg1.N := by rw [hN]; omega
  obtain ⟨-, -, -, -, -, -, -, -, e0, e1⟩ := idx1 ⟨(i 0).val / 3000, hq⟩
  have e0' : win1_4.index ⟨(i 0).val / 3000, hq⟩ (0 : Fin 2) = (i 0).val / 3000 := e0
  refine ⟨⟨(i 0).val / 3000, hq⟩, flush1_4 _, ?_⟩
  rw [mem_blk1]
  intro a
  match a with
  | ⟨0, _⟩ => show win1_4.index ⟨(i 0).val / 3000, hq⟩ (0 : Fin 2) * 3000 ≤ (i 0).val ∧ (i 0).val < win1_4.index ⟨(i 0).val / 3000, hq⟩ (0 : Fin 2) * 3000 + 3000; omega
  | ⟨1, _⟩ => show win1_4.index ⟨(i 0).val / 3000, hq⟩ (1 : Fin 2) * 64 ≤ (i 1).val ∧ (i 1).val < win1_4.index ⟨(i 0).val / 3000, hq⟩ (1 : Fin 2) * 64 + 64; omega

/-- The output array after the region: the layer applied to the input array as the region finds it. -/
theorem final1 (c : Dev nD) :
    (dat1 (F := Ideal) V c).arrAt 4 cfg1.N = dense 150000 (V c main_v27) (V c main_arg5) (V c main_arg6) (V c main_arg7) :=
  (dat1 V c).arrAt_eq_of_cover 4 _ (fun t _ => flushed1_eq V c t) (cover1)

end Cert.KernelIdeal.Blocks

end
-- ==== Proof.KernelValue.lean ====
/-
  The kernel program's three results as functions of its arguments.

  Following the buffers through @main's four segments: the joined table `xcat` is written once, by the first host
  operation, and nothing after it writes that buffer. The first region's input is the sparse product of the edge arrays
  with `xcat`, and its output array ends at the layer applied to that input (`KernelBlocks.lean`): `out1`. The host
  operations between the regions read that output and the same edge arrays, so the second region's input is the sparse
  product with `out1`, and its output ends at `out2`. The arguments are as launched at every boundary.
-/
import proofs.«142948_j10746008175460_1_alg».proof.Proof.Gen.KernelIdeal.Frame
import proofs.«142948_j10746008175460_1_alg».proof.Proof.KernelBlocks
import proofs.«142948_j10746008175460_1_alg».proof.Proof.Sparse
import Idealize.ShloMosaic.Lib.StableHlo.Run

set_option maxRecDepth 16384

noncomputable section

namespace Cert.KernelIdeal.Result

open Cert.KernelIdeal Cert.KernelIdeal.Gen Cert.KernelIdeal.Sparse Cert.Spec
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-! ## The arguments at the boundaries -/

/-- No host operation before the first region writes an argument. -/
theorem W1_arg0 (c : Dev nD) : W1 m ρ c (Proc.devRef .tc main_arg0) = m ((c : Thread nD τ).loc main_arg0) := by
  show StableHlo.after hostOps0 (W0 m ρ c) (Proc.devRef .tc main_arg0) = _
  dsimp only [hostOps0]
  after_results
  all_goals rfl
/-- No host operation before the first region writes an argument. -/
theorem W1_arg1 (c : Dev nD) : W1 m ρ c (Proc.devRef .tc main_arg1) = m ((c : Thread nD τ).loc main_arg1) := by
  show StableHlo.after hostOps0 (W0 m ρ c) (Proc.devRef .tc main_arg1) = _
  dsimp only [hostOps0]
  after_results
  all_goals rfl
/-- No host operation before the first region writes an argument. -/
theorem W1_arg2 (c : Dev nD) : W1 m ρ c (Proc.devRef .tc main_arg2) = m ((c : Thread nD τ).loc main_arg2) := by
  show StableHlo.after hostOps0 (W0 m ρ c) (Proc.devRef .tc main_arg2) = _
  dsimp only [hostOps0]
  after_results
  all_goals rfl
/-- No host operation before the first region writes an argument. -/
theorem W1_arg3 (c : Dev nD) : W1 m ρ c (Proc.devRef .tc main_arg3) = m ((c : Thread nD τ).loc main_arg3) := by
  show StableHlo.after hostOps0 (W0 m ρ c) (Proc.devRef .tc main_arg3) = _
  dsimp only [hostOps0]
  after_results
  all_goals rfl
/-- No host operation before the first region writes an argument. -/
theorem W1_arg4 (c : Dev nD) : W1 m ρ c (Proc.devRef .tc main_arg4) = m ((c : Thread nD τ).loc main_arg4) := by
  show StableHlo.after hostOps0 (W0 m ρ c) (Proc.devRef .tc main_arg4) = _
  dsimp only [hostOps0]
  after_results
  all_goals rfl
/-- No host operation before the first region writes an argument. -/
theorem W1_arg5 (c : Dev nD) : W1 m ρ c (Proc.devRef .tc main_arg5) = m ((c : Thread nD τ).loc main_arg5) := by
  show StableHlo.after hostOps0 (W0 m ρ c) (Proc.devRef .tc main_arg5) = _
  dsimp only [hostOps0]
  after_results
  all_goals rfl
/-- No host operation before the first region writes an argument. -/
theorem W1_arg6 (c : Dev nD) : W1 m ρ c (Proc.devRef .tc main_arg6) = m ((c : Thread nD τ).loc main_arg6) := by
  show StableHlo.after hostOps0 (W0 m ρ c) (Proc.devRef .tc main_arg6) = _
  dsimp only [hostOps0]
  after_results
  all_goals rfl
/-- No host operation before the first region writes an argument. -/
theorem W1_arg7 (c : Dev nD) : W1 m ρ c (Proc.devRef .tc main_arg7) = m ((c : Thread nD τ).loc main_arg7) := by
  show StableHlo.after hostOps0 (W0 m ρ c) (Proc.devRef .tc main_arg7) = _
  dsimp only [hostOps0]
  after_results
  all_goals rfl

theorem W2_arg0 (c : Dev nD) : W2 m ρ c (Proc.devRef .tc main_arg0) = m ((c : Thread nD τ).loc main_arg0) :=
  (W2_of_ne m ρ c main_arg0 (by decide)).trans (W1_arg0 m ρ c)
theorem W2_arg1 (c : Dev nD) : W2 m ρ c (Proc.devRef .tc main_arg1) = m ((c : Thread nD τ).loc main_arg1) :=
  (W2_of_ne m ρ c main_arg1 (by decide)).trans (W1_arg1 m ρ c)
theorem W2_arg2 (c : Dev nD) : W2 m ρ c (Proc.devRef .tc main_arg2) = m ((c : Thread nD τ).loc main_arg2) :=
  (W2_of_ne m ρ c main_arg2 (by decide)).trans (W1_arg2 m ρ c)

theorem W3_arg5 (c : Dev nD) : W3 m ρ c (Proc.devRef .tc main_arg5) = m ((c : Thread nD τ).loc main_arg5) :=
  ((W4_arr m ρ c 1).trans (((dat1 (V3 m ρ) c).arrAt_in 1 rfl _).trans (A_eq1 (V3 m ρ) c 1))).symm.trans (W4_main_arg5 m ρ c)
theorem W3_arg6 (c : Dev nD) : W3 m ρ c (Proc.devRef .tc main_arg6) = m ((c : Thread nD τ).loc main_arg6) :=
  ((W4_arr m ρ c 2).trans (((dat1 (V3 m ρ) c).arrAt_in 2 rfl _).trans (A_eq1 (V3 m ρ) c 2))).symm.trans (W4_main_arg6 m ρ c)
theorem W3_arg7 (c : Dev nD) : W3 m ρ c (Proc.devRef .tc main_arg7) = m ((c : Thread nD τ).loc main_arg7) :=
  ((W4_arr m ρ c 3).trans (((dat1 (V3 m ρ) c).arrAt_in 3 rfl _).trans (A_eq1 (V3 m ρ) c 3))).symm.trans (W4_main_arg7 m ρ c)

/-! ## The first layer -/

/-- The joined table, as the first region finds it. -/
theorem W1_v0 (c : Dev nD) : W1 m ρ c (Proc.devRef .tc main_v0) = xcat (F := Ideal) (m ((c : Thread nD τ).loc main_arg3)) (m ((c : Thread nD τ).loc main_arg4)) := by
  show StableHlo.after hostOps0 (W0 m ρ c) (Proc.devRef .tc main_v0) = _
  dsimp only [hostOps0]
  after_results
  all_goals rfl

set_option maxHeartbeats 4000000 in
/-- The first region's input: the sparse product with the joined table. -/
theorem V1_v13 (c : Dev nD) :
    V1 m ρ c main_v13 = spmm (F := Ideal) (m ((c : Thread nD τ).loc main_arg0)) (m ((c : Thread nD τ).loc main_arg1)) (m ((c : Thread nD τ).loc main_arg2)) (xcat (F := Ideal) (m ((c : Thread nD τ).loc main_arg3)) (m ((c : Thread nD τ).loc main_arg4))) := by
  show StableHlo.after hostOps0 (W0 m ρ c) (Proc.devRef .tc main_v13) = _
  dsimp only [hostOps0]
  after_results_simp
  all_goals rfl

/-- The first region's output array after the region. -/
theorem W2_v14 (c : Dev nD) :
    W2 m ρ c (Proc.devRef .tc main_v14) = out1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W2_arr m ρ c 4).trans ?_
  refine (Blocks.final0 (V1 m ρ) c).trans ?_
  show dense 150000 (V1 m ρ c main_v13) (W1 m ρ c (Proc.devRef .tc main_arg5)) (W1 m ρ c (Proc.devRef .tc main_arg6)) (W1 m ρ c (Proc.devRef .tc main_arg7)) = _
  rw [V1_v13 m ρ c, W1_arg5 m ρ c, W1_arg6 m ρ c, W1_arg7 m ρ c]
  rfl

/-! ## The second layer -/

set_option maxHeartbeats 4000000 in
/-- The second region's input: the sparse product with the first region's output. -/
theorem V3_v27 (c : Dev nD) :
    V3 m ρ c main_v27 = spmm (F := Ideal) (m ((c : Thread nD τ).loc main_arg0)) (m ((c : Thread nD τ).loc main_arg1)) (m ((c : Thread nD τ).loc main_arg2)) (W2 m ρ c (Proc.devRef .tc main_v14)) := by
  show StableHlo.after hostOps1 (W2 m ρ c) (Proc.devRef .tc main_v27) = _
  dsimp only [hostOps1]
  after_results_simp
  rw [W2_arg0 m ρ c, W2_arg1 m ρ c, W2_arg2 m ρ c]
  all_goals rfl

/-- The second region's output array after the region. -/
theorem W4_v28 (c : Dev nD) :
    W4 m ρ c (Proc.devRef .tc main_v28) = out2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 4).trans ?_
  refine (Blocks.final1 (V3 m ρ) c).trans ?_
  show dense 150000 (V3 m ρ c main_v27) (W3 m ρ c (Proc.devRef .tc main_arg5)) (W3 m ρ c (Proc.devRef .tc main_arg6)) (W3 m ρ c (Proc.devRef .tc main_arg7)) = _
  rw [V3_v27 m ρ c, W2_v14 m ρ c, W3_arg5 m ρ c, W3_arg6 m ρ c, W3_arg7 m ρ c]
  rfl

/-! ## The other two results at the last boundary -/

/-- Nothing after the first region writes its output array. -/
theorem W4_v14 (c : Dev nD) :
    W4 m ρ c (Proc.devRef .tc main_v14) = out1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_of_ne m ρ c main_v14 (by decide)).trans ?_
  refine Eq.trans ?_ (W2_v14 m ρ c)
  show StableHlo.after hostOps1 (W2 m ρ c) (Proc.devRef .tc main_v14) = _
  dsimp only [hostOps1]
  after_results
  all_goals rfl

/-- Nothing after the first host operation writes the joined table. -/
theorem W4_v0 (c : Dev nD) : W4 m ρ c (Proc.devRef .tc main_v0) = xcat (F := Ideal) (m ((c : Thread nD τ).loc main_arg3)) (m ((c : Thread nD τ).loc main_arg4)) := by
  refine (W4_of_ne m ρ c main_v0 (by decide)).trans ?_
  have h32 : W3 m ρ c (Proc.devRef .tc main_v0) = W2 m ρ c (Proc.devRef .tc main_v0) := by
    show StableHlo.after hostOps1 (W2 m ρ c) (Proc.devRef .tc main_v0) = _
    dsimp only [hostOps1]
    after_results
    all_goals rfl
  exact h32.trans ((W2_of_ne m ρ c main_v0 (by decide)).trans (W1_v0 m ρ c))

end Cert.KernelIdeal.Result

end
-- ==== Proof.lean ====
/-
  The kernel runs two layers of a graph network: each layer multiplies the node array by the sparse adjacency matrix
  on the host (gather the rows the edges' column indices name, scale by the edges' values, add into the rows their row
  indices name) and then, in a pipelined region over fifty blocks of 3000 rows, sends every row through a leaky
  rectifier, two products with transposed 64 × 64 matrices, the rectifier again and a third product. The reference
  computes the same layers wholly on the host. Over the extended reals the two agree entry by entry:

  * the sparse product is printed with the same operations in both programs and is compared as ONE function `spmm`
    (`Proof/Sparse.lean`), never opened;
  * a region's body on a block is the row function `chain` of `Proof/Spec.lean` on each row (`Proof/KernelBody.lean`),
    a row of a block is a row of the array and the fifty blocks cover it, so a region's output array is `dense` of its
    input array (`Proof/KernelBlocks.lean`); following the buffers through @main's four segments gives the three
    results `xcat`, `out1`, `out2` of the arguments (`Proof/KernelRun.lean`, `Proof/KernelValue.lean`);
  * the reference's selections and products, read at an index, are the same `leaky` and row-times-transpose sums, so its
    results are the same three terms (`Proof/RefLayer.lean` over the reference's run, `Proof/RefRun.lean` and
    `Proof/RefRead.lean`).
  The only law used between the two sides is that a finite sum in a commutative monoid does not depend on how it is
  written; the rounding to the narrower float format in front of the kernel's products is the identity on extended
  reals. Nothing here needs the inputs finite, so the precondition is never opened. The idealization rewrote no
  operation: `preserves` has nothing to state.
-/
import proofs.«142948_j10746008175460_1_alg».proof.Defs
import proofs.«142948_j10746008175460_1_alg».proof.Proof.Gen.Kernel
import proofs.«142948_j10746008175460_1_alg».proof.Proof.Gen.Kernel.Skeleton
import proofs.«142948_j10746008175460_1_alg».proof.Proof.Gen.Kernel.Launch
import proofs.«142948_j10746008175460_1_alg».proof.Proof.Gen.Kernel.Points
import proofs.«142948_j10746008175460_1_alg».proof.Proof.Gen.Kernel.Frame
import proofs.«142948_j10746008175460_1_alg».proof.Proof.Gen.KernelIdeal
import proofs.«142948_j10746008175460_1_alg».proof.Proof.Gen.KernelIdeal.Skeleton
import proofs.«142948_j10746008175460_1_alg».proof.Proof.Gen.KernelIdeal.Launch
import proofs.«142948_j10746008175460_1_alg».proof.Proof.Gen.KernelIdeal.Points
import proofs.«142948_j10746008175460_1_alg».proof.Proof.Gen.KernelIdeal.Frame
import proofs.«142948_j10746008175460_1_alg».proof.Proof.Gen.ReferenceIdeal
import proofs.«142948_j10746008175460_1_alg».proof.Proof.Gen.Pre_finite_inputs
import proofs.«142948_j10746008175460_1_alg».proof.Proof.RefRun
import proofs.«142948_j10746008175460_1_alg».proof.Proof.RefRead
import proofs.«142948_j10746008175460_1_alg».proof.Proof.RefLayer
import proofs.«142948_j10746008175460_1_alg».proof.Proof.KernelRun
import proofs.«142948_j10746008175460_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : Cert.frame_Kernel (hKernel := Cert.Kernel.Gen.facts) (hPre_finite_inputs := Cert.Pre_finite_inputs.Gen.facts) :=
  fun m ρ _ => Cert.Kernel.Gen.frame m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2)
    (Cert.ReferenceIdeal.ValueP.run (F := Ideal) m ρ)

/-- The idealization rewrote nothing. -/
theorem preserves : Cert.preserves_Kernel_KernelIdeal := trivial

/-- From memories agreeing on the arguments both idealized programs end with the joined table, the first layer's
    result and the second layer's result: the same three functions of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Sparse.xcat (F := Ideal) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Cert.KernelIdeal.Sparse.out1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.KernelIdeal.Sparse.out2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun r h c => ?_) (Cert.KernelIdeal.RunValue.run (F := Ideal) m ρ)
    obtain ⟨h0, h1, h2, hargs⟩ := h c
    exact ⟨h0.trans (Cert.KernelIdeal.Result.W4_v0 m ρ c), h1.trans (Cert.KernelIdeal.Result.W4_v14 m ρ c),
      h2.trans (Cert.KernelIdeal.Result.W4_v28 m ρ c), hargs⟩
  · refine (θ_run Cert.ReferenceIdeal.defs _ _).mono (fun r h c => ?_) (Cert.ReferenceIdeal.ValueP.run (F := Ideal) m' ρ')
    obtain ⟨h0, h1, h2, hargs⟩ := h c
    obtain ⟨e0, e1, e2, e3, e4, e5, e6, e7⟩ := hagree c
    refine ⟨h0.trans ?_, h1.trans ?_, h2.trans ?_, hargs⟩
    · rw [e3, e4]
      rfl
    · rw [Cert.ReferenceIdeal.ReadP.val_main_v29_eq, Cert.ReferenceIdeal.Layer.v29_eq, e0, e1, e2, e3, e4, e5, e6, e7]
    · rw [Cert.ReferenceIdeal.ReadP.val_main_v58_eq, Cert.ReferenceIdeal.Layer.v58_eq, e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
